-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x300x1x512 : Shape := ⟨4, ![8, 300, 1, 512]⟩
abbrev S8x1x80x512 : Shape := ⟨4, ![8, 1, 80, 512]⟩
abbrev S1024x640 : Shape := ⟨2, ![1024, 640]⟩
abbrev S640 : Shape := ⟨1, ![640]⟩
abbrev S_ : Shape := ⟨0, ![]⟩

class Facts : Prop where
  bcast_S_S8x300x1x512 : S_.BroadcastsInDim S8x300x1x512 (![] : Fin 0 → Fin S8x300x1x512.rank)
  reducesTo_S8x300x1x512_S_d0_1_2_3 : S8x300x1x512.ReducesTo [0, 1, 2, 3] S_
  h_S_ : 0 < S_.numel
  bcast_S_S8x1x80x512 : S_.BroadcastsInDim S8x1x80x512 (![] : Fin 0 → Fin S8x1x80x512.rank)
  reducesTo_S8x1x80x512_S_d0_1_2_3 : S8x1x80x512.ReducesTo [0, 1, 2, 3] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_

variable [Facts]

def fn_part1 {F : FTy → Type} [FloatOps F] (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  main_v18

def fn {F : FTy → Type} [FloatOps F] (main_arg0 : FVec F S8x300x1x512 .f32) (main_arg1 : FVec F S8x1x80x512 .f32) (main_arg2 : FVec F S1024x640 .f32) (main_arg3 : FVec F S640 .f32) : IVec S_ 1 :=
  let main_v0 : FVec F S8x300x1x512 .f32 := Host.absf main_arg0
  let main_cst : FVec F S_ .f32 := constant S_ .f32 0x7F800000#32
  let main_v1 : FVec F S8x300x1x512 .f32 := broadcastInDim S8x300x1x512 ![] bcast_S_S8x300x1x512 main_cst
  let main_v2 : IVec S8x300x1x512 1 := cmpf .olt main_v0 main_v1
  let main_c : IVec S_ 1 := constantI S_ 1 1#1
  let main_v3 : IVec S_ 1 := (fun x v => Host.reduce IntOp.andi x v reducesTo_S8x300x1x512_S_d0_1_2_3 h_S_) main_v2 main_c
  let main_v4 : FVec F S8x1x80x512 .f32 := Host.absf main_arg1
  let main_cst_0 : FVec F S_ .f32 := constant S_ .f32 0x7F800000#32
  let main_v5 : FVec F S8x1x80x512 .f32 := broadcastInDim S8x1x80x512 ![] bcast_S_S8x1x80x512 main_cst_0
  let main_v6 : IVec S8x1x80x512 1 := cmpf .olt main_v4 main_v5
  let main_c_1 : IVec S_ 1 := constantI S_ 1 1#1
  let main_v7 : IVec S_ 1 := (fun x v => Host.reduce IntOp.andi x v reducesTo_S8x1x80x512_S_d0_1_2_3 h_S_) main_v6 main_c_1
  let main_v8 : IVec S_ 1 := andi main_v3 main_v7
  let main_v9 : FVec F S1024x640 .f32 := Host.absf main_arg2
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_v13 main_v16
-- ==== Kernel.lean ====
abbrev S8x300x1x512 : Shape := ⟨4, ![8, 300, 1, 512]⟩
abbrev S8x1x80x512 : Shape := ⟨4, ![8, 1, 80, 512]⟩
abbrev S1024x640 : Shape := ⟨2, ![1024, 640]⟩
abbrev S640 : Shape := ⟨1, ![640]⟩
abbrev S8x300x80x640 : Shape := ⟨4, ![8, 300, 80, 640]⟩
abbrev S1x50x1x512 : Shape := ⟨4, ![1, 50, 1, 512]⟩
abbrev S1x1x80x512 : Shape := ⟨4, ![1, 1, 80, 512]⟩
abbrev S1x50x80x640 : Shape := ⟨4, ![1, 50, 80, 640]⟩
abbrev S80x640 : Shape := ⟨2, ![80, 640]⟩
abbrev S50x512 : Shape := ⟨2, ![50, 512]⟩
abbrev S80x512 : Shape := ⟨2, ![80, 512]⟩
abbrev S512x640 : Shape := ⟨2, ![512, 640]⟩
abbrev S50x640 : Shape := ⟨2, ![50, 640]⟩
abbrev S1x640 : Shape := ⟨2, ![1, 640]⟩
abbrev S16x640 : Shape := ⟨2, ![16, 640]⟩
abbrev S50x1x640 : Shape := ⟨3, ![50, 1, 640]⟩
abbrev S1x16x640 : Shape := ⟨3, ![1, 16, 640]⟩
abbrev S50x16x640 : Shape := ⟨3, ![50, 16, 640]⟩
abbrev S1x50x16x640 : Shape := ⟨4, ![1, 50, 16, 640]⟩

abbrev nBuf : Space → Nat
  | .hbm => 8
  | .vmem => 9
  | .smem => 0
  | _ => 0

abbrev bufTy : (tb : Table) → Fin (tcTables nBuf tb) → BufTy
  | .hbm, ⟨0, _⟩ => ⟨S8x300x1x512, .f32⟩
  | .hbm, ⟨1, _⟩ => ⟨S8x1x80x512, .f32⟩
  | .hbm, ⟨2, _⟩ => ⟨S1024x640, .f32⟩
  | .hbm, ⟨3, _⟩ => ⟨S640, .f32⟩
  | .hbm, ⟨4, _⟩ => ⟨S8x300x1x512, .bf16⟩
  | .hbm, ⟨5, _⟩ => ⟨S8x1x80x512, .bf16⟩
  | .hbm, ⟨6, _⟩ => ⟨S1024x640, .bf16⟩
  | .hbm, ⟨7, _⟩ => ⟨S8x300x80x640, .f32⟩
  | .local _ .vmem, ⟨0, _⟩ => ⟨S1x50x1x512, .bf16⟩
  | .local _ .vmem, ⟨1, _⟩ => ⟨S1x50x1x512, .bf16⟩
  | .local _ .vmem, ⟨2, _⟩ => ⟨S1x1x80x512, .bf16⟩
  | .local _ .vmem, ⟨3, _⟩ => ⟨S1x1x80x512, .bf16⟩
  | .local _ .vmem, ⟨4, _⟩ => ⟨S1024x640, .bf16⟩
  | .local _ .vmem, ⟨5, _⟩ => ⟨S640, .f32⟩
  | .local _ .vmem, ⟨6, _⟩ => ⟨S1x50x80x640, .f32⟩
  | .local _ .vmem, ⟨7, _⟩ => ⟨S1x50x80x640, .f32⟩
  | .local _ .vmem, ⟨8, _⟩ => ⟨S80x640, .f32⟩
  | _, _ => ⟨S8x300x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x50x1x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x80x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x50x80x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x50x1x512_S1x50x1x512_0_0_0_0 : ∀ a, (![0, 0, 0, 0] : Fin 4 → Nat) a + S1x50x1x512.size a ≤ S1x50x1x512.size a
  h_S1x50x1x512 : 0 < S1x50x1x512.numel
  shapeCasts_S1x50x1x512_S50x512 : S1x50x1x512.ShapeCasts S50x512
  inb_S1x1x80x512_S1x1x80x512_0_0_0_0 : ∀ a, (![0, 0, 0, 0] : Fin 4 → Nat) a + S1x1x80x512.size a ≤ S1x1x80x512.size a
  h_S1x1x80x512 : 0 < S1x1x80x512.numel
  shapeCasts_S1x1x80x512_S80x512 : S1x1x80x512.ShapeCasts S80x512
  inb_S1024x640_S512x640_0_0 : ∀ a, (![0, 0] : Fin 2 → Nat) a + S512x640.size a ≤ S1024x640.size a
  h_S512x640 : 0 < S512x640.numel
  shapeCasts_S512x640_S512x640 : S512x640.ShapeCasts S512x640
  inb_S1024x640_S512x640_512_0 : ∀ a, (![512, 0] : Fin 2 → Nat) a + S512x640.size a ≤ S1024x640.size a
  inb_S640_S640_0 : ∀ a, (![0] : Fin 1 → Nat) a + S640.size a ≤ S640.size a
  h_S640 : 0 < S640.numel
  shapeCasts_S640_S1x640 : S640.ShapeCasts S1x640
  broadcasts_S1x640_S50x640 : S1x640.Broadcasts S50x640
  inb_S80x640_S80x640_0_0 : ∀ a, (![0, 0] : Fin 2 → Nat) a + S80x640.size a ≤ S80x640.size a
  h_S80x640 : 0 < S80x640.numel
  shapeCasts_S80x640_S80x640 : S80x640.ShapeCasts S80x640
  inb_S80x640_S16x640_0_0 : ∀ a, (![0, 0] : Fin 2 → Nat) a + S16x640.size a ≤ S80x640.size a
  h_S16x640 : 0 < S16x640.numel
  shapeCasts_S50x640_S50x1x640 : S50x640.ShapeCasts S50x1x640
  shapeCasts_S16x640_S1x16x640 : S16x640.ShapeCasts S1x16x640
  broadcasts_S50x1x640_S50x16x640 : S50x1x640.Broadcasts S50x16x640
  broadcasts_S1x16x640_S50x16x640 : S1x16x640.Broadcasts S50x16x640
  inb_S1x50x80x640_S1x50x16x640_0_0_0_0 : ∀ a, (![0, 0, 0, 0] : Fin 4 → Nat) a + S1x50x16x640.size a ≤ S1x50x80x640.size a
  h_S1x50x16x640 : 0 < S1x50x16x640.numel
  shapeCasts_S1x50x16x640_S50x16x640 : S1x50x16x640.ShapeCasts S50x16x640
  shapeCasts_S50x16x640_S1x50x16x640 : S50x16x640.ShapeCasts S1x50x16x640
  inb_S80x640_S16x640_16_0 : ∀ a, (![16, 0] : Fin 2 → Nat) a + S16x640.size a ≤ S80x640.size a
  inb_S1x50x80x640_S1x50x16x640_0_0_16_0 : ∀ a, (![0, 0, 16, 0] : Fin 4 → Nat) a + S1x50x16x640.size a ≤ S1x50x80x640.size a
  inb_S80x640_S16x640_32_0 : ∀ a, (![32, 0] : Fin 2 → Nat) a + S16x640.size a ≤ S80x640.size a
  inb_S1x50x80x640_S1x50x16x640_0_0_32_0 : ∀ a, (![0, 0, 32, 0] : Fin 4 → Nat) a + S1x50x16x640.size a ≤ S1x50x80x640.size a
  inb_S80x640_S16x640_48_0 : ∀ a, (![48, 0] : Fin 2 → Nat) a + S16x640.size a ≤ S80x640.size a
  inb_S1x50x80x640_S1x50x16x640_0_0_48_0 : ∀ a, (![0, 0, 48, 0] : Fin 4 → Nat) a + S1x50x16x640.size a ≤ S1x50x80x640.size a
  inb_S80x640_S16x640_64_0 : ∀ a, (![64, 0] : Fin 2 → Nat) a + S16x640.size a ≤ S80x640.size a
  inb_S1x50x80x640_S1x50x16x640_0_0_64_0 : ∀ a, (![0, 0, 64, 0] : Fin 4 → Nat) a + S1x50x16x640.size a ≤ S1x50x80x640.size a
  dot_S50x512_S512x640_S50x640_1_0_0_1_n_n_wf : DotDims.WF S50x512 S512x640 S50x640 [1] [0] [0] [1] [] []
  dot_S80x512_S512x640_S80x640_1_0_0_1_n_n_wf : DotDims.WF S80x512 S512x640 S80x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x50x1x512.size a ≤ S8x300x1x512.size a
  hwx0_0 : ∀ i : grid0.Coords, EltTy.bits .bf16 = 32 ∨ (Rect.block (s := S8x300x1x512) S1x50x1x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x80x512.size a ≤ S8x1x80x512.size a
  hwx0_1 : ∀ i : grid0.Coords, EltTy.bits .bf16 = 32 ∨ (Rect.block (s := S8x1x80x512) S1x1x80x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .bf16 = 32 ∨ (Rect.block (s := S1024x640) S1024x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x50x80x640.size a ≤ S8x300x80x640.size a
  hwx0_4 : ∀ i : grid0.Coords, EltTy.bits .f32 = 32 ∨ (Rect.block (s := S8x300x80x640) S1x50x80x640.size (cc0_transform_4 i) (hinb0_4 i)).WholeWords (EltTy.packing .f32)

variable [Facts₀]

def dot_S50x512_S512x640_S50x640_1_0_0_1_n_n : DotDims S50x512 S512x640 S50x640 where
  lhsContracting := [1]
  rhsContracting := [0]
  lhsNonContracting := [0]
  rhsNonContracting := [1]
  lhsBatch := []
  rhsBatch := []
  wf := dot_S50x512_S512x640_S50x640_1_0_0_1_n_n_wf
def dot_S80x512_S512x640_S80x640_1_0_0_1_n_n : DotDims S80x512 S512x640 S80x640 where
  lhsContracting := [1]
  rhsContracting := [0]
  lhsNonContracting := [0]
  rhsNonContracting := [1]
  lhsBatch := []
  rhsBatch := []
  wf := dot_S80x512_S512x640_S80x640_1_0_0_1_n_n_wf

abbrev win0_0 : Pipeline.Window sig grid0 :=
  Pipeline.Window.ofSpec (Memref.whole main_v0) S1x50x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x80x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x50x80x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x300x1x512 : Shape := ⟨4, ![8, 300, 1, 512]⟩
abbrev S8x1x80x512 : Shape := ⟨4, ![8, 1, 80, 512]⟩
abbrev S1024x640 : Shape := ⟨2, ![1024, 640]⟩
abbrev S640 : Shape := ⟨1, ![640]⟩
abbrev S512x640 : Shape := ⟨2, ![512, 640]⟩
abbrev S8x300x1x640 : Shape := ⟨4, ![8, 300, 1, 640]⟩
abbrev S8x1x80x640 : Shape := ⟨4, ![8, 1, 80, 640]⟩
abbrev S8x300x80x640 : Shape := ⟨4, ![8, 300, 80, 640]⟩
abbrev S1x1x1x640 : Shape := ⟨4, ![1, 1, 1, 640]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x300x1x512, .f32⟩
  | .hbm, ⟨1, _⟩ => ⟨S8x1x80x512, .f32⟩
  | .hbm, ⟨2, _⟩ => ⟨S1024x640, .f32⟩
  | .hbm, ⟨3, _⟩ => ⟨S640, .f32⟩
  | .hbm, ⟨4, _⟩ => ⟨S512x640, .f32⟩
  | .hbm, ⟨5, _⟩ => ⟨S512x640, .f32⟩
  | .hbm, ⟨6, _⟩ => ⟨S8x300x1x640, .f32⟩
  | .hbm, ⟨7, _⟩ => ⟨S8x1x80x640, .f32⟩
  | .hbm, ⟨8, _⟩ => ⟨S8x300x80x640, .f32⟩
  | .hbm, ⟨9, _⟩ => ⟨S8x300x80x640, .f32⟩
  | .hbm, ⟨10, _⟩ => ⟨S8x300x80x640, .f32⟩
  | .hbm, ⟨11, _⟩ => ⟨S1x1x1x640, .f32⟩
  | .hbm, ⟨12, _⟩ => ⟨S8x300x80x640, .f32⟩
  | .hbm, ⟨13, _⟩ => ⟨S8x300x80x640, .f32⟩
  | .hbm, ⟨14, _⟩ => ⟨S_, .f32⟩
  | .hbm, ⟨15, _⟩ => ⟨S_, .f32⟩
  | .hbm, ⟨16, _⟩ => ⟨S8x300x80x640, .f32⟩
  | .hbm, ⟨17, _⟩ => ⟨S8x300x80x640, .i1⟩
  | .hbm, ⟨18, _⟩ => ⟨S_, .f32⟩
  | .hbm, ⟨19, _⟩ => ⟨S8x300x80x640, .f32⟩
  | .hbm, ⟨20, _⟩ => ⟨S8x300x80x640, .f32⟩
  | .hbm, ⟨21, _⟩ => ⟨S8x300x80x640, .f32⟩
  | _, _ => ⟨S8x300x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  slices_S1024x640_S512x640_0_0 : S1024x640.Slices ![0, 0] S512x640
  slices_S1024x640_S512x640_512_0 : S1024x640.Slices ![512, 0] S512x640
  bcast_S8x300x1x640_S8x300x80x640_0_1_2_3 : S8x300x1x640.BroadcastsInDim S8x300x80x640 (![0, 1, 2, 3] : Fin 4 → Fin S8x300x80x640.rank)
  bcast_S8x1x80x640_S8x300x80x640_0_1_2_3 : S8x1x80x640.BroadcastsInDim S8x300x80x640 (![0, 1, 2, 3] : Fin 4 → Fin S8x300x80x640.rank)
  bcast_S640_S1x1x1x640_3 : S640.BroadcastsInDim S1x1x1x640 (![3] : Fin 1 → Fin S1x1x1x640.rank)
  bcast_S1x1x1x640_S8x300x80x640_0_1_2_3 : S1x1x1x640.BroadcastsInDim S8x300x80x640 (![0, 1, 2, 3] : Fin 4 → Fin S8x300x80x640.rank)
  bcast_S_S8x300x80x640 : S_.BroadcastsInDim S8x300x80x640 (![] : Fin 0 → Fin S8x300x80x640.rank)
  dot_S8x300x1x512_S512x640_S8x300x1x640_3_0_012_1_n_n_wf : DotDims.WF S8x300x1x512 S512x640 S8x300x1x640 [3] [0] [0, 1, 2] [1] [] []
  dot_S8x1x80x512_S512x640_S8x1x80x640_3_0_012_1_n_n_wf : DotDims.WF S8x1x80x512 S512x640 S8x1x80x640 [3] [0] [0, 1, 2] [1] [] []

variable [Facts₀]

def dot_S8x300x1x512_S512x640_S8x300x1x640_3_0_012_1_n_n : DotDims S8x300x1x512 S512x640 S8x300x1x640 where
  lhsContracting := [3]
  rhsContracting := [0]
  lhsNonContracting := [0, 1, 2]
  rhsNonContracting := [1]
  lhsBatch := []
  rhsBatch := []
  wf := dot_S8x300x1x512_S512x640_S8x300x1x640_3_0_012_1_n_n_wf
def dot_S8x1x80x512_S512x640_S8x1x80x640_3_0_012_1_n_n : DotDims S8x1x80x512 S512x640 S8x1x80x640 where
  lhsContracting := [3]
  rhsContracting := [0]
  lhsNonContracting := [0, 1, 2]
  rhsNonContracting := [1]
  lhsBatch := []
  rhsBatch := []
  wf := dot_S8x1x80x512_S512x640_S8x1x80x640_3_0_012_1_n_n_wf

class Facts : Prop extends Facts₀ where

variable [Facts]
-- ==== Proof.Spec.lean ====
/-
  The joint network's output, entry by entry, over the extended reals.

  For a batch b, a time step t, a label position u and an output channel o the result is
      leaky ( (∑ₕ TN[b,t,0,h] · W[h,o] + bias[o]) + ∑ₕ PN[b,0,u,h] · W[512+h,o] ),
  where leaky x is x for x ≥ 0 and c · x otherwise, c the single-precision constant nearest 0.01
  (kept as its bit pattern: both programs carry the same word, so its value is never needed).
  An entry depends on one row of TN, one row of PN, one column of each half of W and one bias entry:
  `entry` is stated over exactly those five things, and `joint` reads them off the four arrays.
  The other grouping of the three summands, (∑ + ∑) + bias, is the same extended real: addition on
  the extended reals is commutative and associative without any finiteness assumption (`entry_regroup`).
-/
import Idealize.ShloMosaic.PureOps.Ideal
import Idealize.ShloMosaic.PureOps.Ideal.Laws
import Idealize.ShloMosaic.Lib.ValueIdx

noncomputable section

open scoped BigOperators

namespace Cert.Joint

open Idealize.ShloMosaic Idealize.ShloMosaic.ValueIdx

/-- The leaky rectifier on an extended real: x where x ≥ 0, else c · x. -/
def leaky (x : EReal) : EReal :=
  Scalar.select (Ideal.cmp .oge x (Ideal.ofBits .f32 0x00000000#32)) x (Ideal.ofBits .f32 0x3C23D70A#32 * x)

/-- One output entry from the two rows, the two weight columns and the bias entry it depends on. -/
def entry (a p wt wp : Fin 512 → EReal) (bias : EReal) : EReal :=
  leaky ((∑ h, a h * wt h + bias) + ∑ h, p h * wp h)

/-- Adding the bias last instead of in the middle gives the same entry. -/
theorem entry_regroup (a p wt wp : Fin 512 → EReal) (bias : EReal) :
    leaky ((∑ h, a h * wt h + ∑ h, p h * wp h) + bias) = entry a p wt wp bias := by
  unfold entry
  rw [add_right_comm]

/-- Row h of the upper half of the weight matrix. -/
def top (h : Fin 512) : Fin 1024 := ⟨h.val, by have := h.isLt; omega⟩
/-- Row h of the lower half of the weight matrix. -/
def bot (h : Fin 512) : Fin 1024 := ⟨512 + h.val, by have := h.isLt; omega⟩

/-- The whole result array as a function of the four argument arrays. -/
def joint (tn : FVec Ideal ⟨4, ![8, 300, 1, 512]⟩ .f32) (pn : FVec Ideal ⟨4, ![8, 1, 80, 512]⟩ .f32)
    (w : FVec Ideal ⟨2, ![1024, 640]⟩ .f32) (bias : FVec Ideal ⟨1, ![640]⟩ .f32) :
    FVec Ideal ⟨4, ![8, 300, 80, 640]⟩ .f32 := fun i =>
  entry (fun h => tn (ix4 (i 0) (i 1) (0 : Fin 1) h)) (fun h => pn (ix4 (i 0) (0 : Fin 1) (i 2) h))
    (fun h => w (ix2 (top h) (i 3))) (fun h => w (ix2 (bot h) (i 3))) (bias (ix1 (i 3)))

end Cert.Joint

end
-- ==== Proof.KernelPay.lean ====
/-
  The kernel body's arithmetic read at one index, at the exact (extended-real) reading.

  A grid step holds one (50, 512) block of TN, the whole (80, 512) slab of PN for its batch, the whole weight
  matrix and the bias. It forms the (50, 640) projection of the TN block by the upper half of the weights and adds
  the bias row to it; it forms the (80, 640) projection of the PN slab by the lower half; and for each of five
  chunks of sixteen label positions it adds a chunk of the second to the first, broadcast against each other,
  and applies the leaky rectifier. Read at an index:
    * a product of a (n, 512) block with a (512, 640) block into a zero accumulator is, at (r, o), the sum
      over the 512 hidden units h of block[r, h] · weights[h, o] (the contraction's one axis re-indexed by h);
    * the bias row broadcast down the rows reads bias[o];
    * a chunk's payload at (·, r, q, o) is leaky (proj[r, o] + chunk[q, o]).
-/
import proofs.«107195_j74981539053948_2_alg».proof.Proof.Gen.KernelIdeal.Skeleton
import proofs.«107195_j74981539053948_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The TN block times the upper weights, into a zero accumulator, at (r, o): the sum over the hidden units. -/
theorem matmul_tn (A : FVec Ideal S50x512 .bf16) (B : FVec Ideal S512x640 .bf16) (r : Fin 50) (o : Fin 640) :
    matmul dot_S50x512_S512x640_S50x640_1_0_0_1_n_n none A B (constant S50x640 .f32 0x00000000#32) (ix2 r o)
      = ∑ h : Fin 512, A (ix2 r h) * B (ix2 h o) := by
  show FloatOps.matmul _ none A B (constant S50x640 .f32 0x00000000#32) (ix2 r o) = _
  rw [Ideal.matmul_constant_zero_apply,
    ← Equiv.sum_comp (contrEquiv1 dot_S50x512_S512x640_S50x640_1_0_0_1_n_n 512 rfl rfl).symm]
  refine Finset.sum_congr rfl fun h _ => ?_
  have ch := contrEquiv1_symm_val dot_S50x512_S512x640_S50x640_1_0_0_1_n_n 512 rfl rfl h
  have hl : (dot_S50x512_S512x640_S50x640_1_0_0_1_n_n).lhsIdx (ix2 r o) ((contrEquiv1 dot_S50x512_S512x640_S50x640_1_0_0_1_n_n 512 rfl rfl).symm h) = ix2 r h := by
    funext ax; apply Fin.ext
    match ax with
    | ⟨0, _⟩ => rfl
    | ⟨1, _⟩ => exact (DotDims.lhsIdx_val_of_single _ rfl _ _).trans ch
  have hr : (dot_S50x512_S512x640_S50x640_1_0_0_1_n_n).rhsIdx (ix2 r o) ((contrEquiv1 dot_S50x512_S512x640_S50x640_1_0_0_1_n_n 512 rfl rfl).symm h) = ix2 h o := by
    funext ax; apply Fin.ext
    match ax with
    | ⟨0, _⟩ => exact (DotDims.rhsIdx_val_of_single _ rfl _ _).trans ch
    | ⟨1, _⟩ => rfl
  rw [hl, hr]

/-- The PN slab times the lower weights, into a zero accumulator, at (u, o): the sum over the hidden units. -/
theorem matmul_pn (A : FVec Ideal S80x512 .bf16) (B : FVec Ideal S512x640 .bf16) (r : Fin 80) (o : Fin 640) :
    matmul dot_S80x512_S512x640_S80x640_1_0_0_1_n_n none A B (constant S80x640 .f32 0x00000000#32) (ix2 r o)
      = ∑ h : Fin 512, A (ix2 r h) * B (ix2 h o) := by
  show FloatOps.matmul _ none A B (constant S80x640 .f32 0x00000000#32) (ix2 r o) = _
  rw [Ideal.matmul_constant_zero_apply,
    ← Equiv.sum_comp (contrEquiv1 dot_S80x512_S512x640_S80x640_1_0_0_1_n_n 512 rfl rfl).symm]
  refine Finset.sum_congr rfl fun h _ => ?_
  have ch := contrEquiv1_symm_val dot_S80x512_S512x640_S80x640_1_0_0_1_n_n 512 rfl rfl h
  have hl : (dot_S80x512_S512x640_S80x640_1_0_0_1_n_n).lhsIdx (ix2 r o) ((contrEquiv1 dot_S80x512_S512x640_S80x640_1_0_0_1_n_n 512 rfl rfl).symm h) = ix2 r h := by
    funext ax; apply Fin.ext
    match ax with
    | ⟨0, _⟩ => rfl
    | ⟨1, _⟩ => exact (DotDims.lhsIdx_val_of_single _ rfl _ _).trans ch
  have hr : (dot_S80x512_S512x640_S80x640_1_0_0_1_n_n).rhsIdx (ix2 r o) ((contrEquiv1 dot_S80x512_S512x640_S80x640_1_0_0_1_n_n 512 rfl rfl).symm h) = ix2 h o := by
    funext ax; apply Fin.ext
    match ax with
    | ⟨0, _⟩ => exact (DotDims.rhsIdx_val_of_single _ rfl _ _).trans ch
    | ⟨1, _⟩ => rfl
  rw [hl, hr]

/-- The TN block with its two unit axes dropped reads, at (r, k), the block at (0, r, 0, k). -/
theorem cast_tn (v0 : Vec Ideal S1x50x1x512 .bf16) (h : S1x50x1x512.ShapeCasts S50x512) (r : Fin 50) (k : Fin 512) :
    shapeCast S50x512 v0 h (ix2 r k) = v0 (ix4 (0 : Fin 1) r (0 : Fin 1) k) :=
  shapeCast_apply v0 h (ix2 r k) (ix4 (0 : Fin 1) r (0 : Fin 1) k) (by
    rw [Shape.rowMajor_val_four, Shape.rowMajor_val_two]
    show ((0 * 50 + r.val) * 1 + 0) * 512 + k.val = r.val * 512 + k.val
    omega)

/-- The PN slab with its two unit axes dropped reads, at (u, k), the slab at (0, 0, u, k). -/
theorem cast_pn (v2 : Vec Ideal S1x1x80x512 .bf16) (h : S1x1x80x512.ShapeCasts S80x512) (u : Fin 80) (k : Fin 512) :
    shapeCast S80x512 v2 h (ix2 u k) = v2 (ix4 (0 : Fin 1) (0 : Fin 1) u k) :=
  shapeCast_apply v2 h (ix2 u k) (ix4 (0 : Fin 1) (0 : Fin 1) u k) (by
    rw [Shape.rowMajor_val_four, Shape.rowMajor_val_two]
    show ((0 * 1 + 0) * 80 + u.val) * 512 + k.val = u.val * 512 + k.val
    omega)

/-- The TN projection with the bias row added, at (r, o). -/
theorem pay3_at (v0 : Vec Ideal S1x50x1x512 .bf16) (v4 : Vec Ideal S512x640 .bf16) (v8 : Vec Ideal S640 .f32) (r : Fin 50) (o : Fin 640) :
    k0_pay3 v0 v4 v8 (ix2 r o) = (∑ h : Fin 512, v0 (ix4 (0 : Fin 1) r (0 : Fin 1) h) * v4 (ix2 h o)) + v8 (ix1 o) := by
  unfold k0_pay3
  show matmul (F := Ideal) dot_S50x512_S512x640_S50x640_1_0_0_1_n_n none (shapeCast S50x512 v0 shapeCasts_S1x50x1x512_S50x512) (shapeCast S512x640 v4 shapeCasts_S512x640_S512x640) (constant (F := Ideal) S50x640 .f32 0x00000000#32) (ix2 r o)
      + broadcastTo S50x640 (shapeCast S1x640 v8 shapeCasts_S640_S1x640) broadcasts_S1x640_S50x640 (ix2 r o) = _
  rw [matmul_tn, shapeCast_self, broadcastTo_1b_ab_apply, shapeCast_a_1a_apply]
  refine congrArg (· + v8 (ix1 o)) (Finset.sum_congr rfl fun h _ => ?_)
  rw [cast_tn]

/-- The PN projection, at (u, o). -/
theorem pay4_at (v2 : Vec Ideal S1x1x80x512 .bf16) (v6 : Vec Ideal S512x640 .bf16) (u : Fin 80) (o : Fin 640) :
    k0_pay4 v2 v6 (ix2 u o) = ∑ h : Fin 512, v2 (ix4 (0 : Fin 1) (0 : Fin 1) u h) * v6 (ix2 h o) := by
  unfold k0_pay4
  show shapeCast S80x640 (matmul (F := Ideal) dot_S80x512_S512x640_S80x640_1_0_0_1_n_n none (shapeCast S80x512 v2 shapeCasts_S1x1x80x512_S80x512) (shapeCast S512x640 v6 shapeCasts_S512x640_S512x640) (constant (F := Ideal) S80x640 .f32 0x00000000#32)) shapeCasts_S80x640_S80x640 (ix2 u o) = _
  rw [shapeCast_self, matmul_pn, shapeCast_self]
  refine Finset.sum_congr rfl fun h _ => ?_
  rw [cast_pn]

/-- The TN projection, given a unit label axis and broadcast over sixteen label positions, reads its (r, o) entry. -/
theorem bc_tn (v12 : FVec Ideal S50x640 .f32) (h1 : S50x640.ShapeCasts S50x1x640) (h2 : S50x1x640.Broadcasts S50x16x640)
    (r : Fin 50) (q : Fin 16) (o : Fin 640) :
    broadcastTo S50x16x640 (shapeCast S50x1x640 v12 h1) h2 (ix3 r q o) = v12 (ix2 r o) := by
  refine (broadcastTo_apply _ h2 (ix3 r q o) (ix3 r (0 : Fin 1) o) fun ax => ?_).trans
    (shapeCast_apply v12 h1 (ix3 r (0 : Fin 1) o) (ix2 r o) ?_)
  · match ax with
    | ⟨0, _⟩ => rfl
    | ⟨1, _⟩ => rfl
    | ⟨2, _⟩ => rfl
  · rw [Shape.rowMajor_val_two, Shape.rowMajor_val_three]
    show r.val * 640 + o.val = (r.val * 1 + 0) * 640 + o.val
    omega

/-- A chunk of the PN projection, given a unit time axis and broadcast over the fifty time steps, reads its (q, o) entry. -/
theorem bc_ch (v : Vec Ideal S16x640 .f32) (h1 : S16x640.ShapeCasts S1x16x640) (h2 : S1x16x640.Broadcasts S50x16x640)
    (r : Fin 50) (q : Fin 16) (o : Fin 640) :
    broadcastTo S50x16x640 (shapeCast S1x16x640 v h1) h2 (ix3 r q o) = v (ix2 q o) := by
  refine (broadcastTo_apply _ h2 (ix3 r q o) (ix3 (0 : Fin 1) q o) fun ax => ?_).trans
    (shapeCast_ab_1ab_apply v h1 (0 : Fin 1) q o)
  match ax with
  | ⟨0, _⟩ => rfl
  | ⟨1, _⟩ => rfl
  | ⟨2, _⟩ => rfl

/-- A chunk's payload at (·, r, q, o): the leaky rectifier of the TN projection at (r, o) plus the chunk at (q, o). -/
theorem pay2_at (v12 : FVec Ideal S50x640 .f32) (v73 : Vec Ideal S16x640 .f32) (z : Fin 1) (r : Fin 50) (q : Fin 16) (o : Fin 640) :
    k0_pay2 v12 v73 (ix4 z r q o) = Joint.leaky (v12 (ix2 r o) + v73 (ix2 q o)) := by
  unfold k0_pay2
  refine (shapeCast_abc_1abc_apply _ _ z r q o).trans ?_
  have hJ : (addf (broadcastTo S50x16x640 (shapeCast S50x1x640 v12 shapeCasts_S50x640_S50x1x640) broadcasts_S50x1x640_S50x16x640)
        (broadcastTo S50x16x640 (shapeCast S1x16x640 v73 shapeCasts_S16x640_S1x16x640) broadcasts_S1x16x640_S50x16x640)
          : FVec Ideal S50x16x640 .f32) (ix3 r q o) = v12 (ix2 r o) + v73 (ix2 q o) := by
    show broadcastTo S50x16x640 (shapeCast S50x1x640 v12 _) _ (ix3 r q o)
      + broadcastTo S50x16x640 (shapeCast S1x16x640 v73 _) _ (ix3 r q o) = _
    rw [bc_tn, bc_ch]
  show Scalar.select (FloatOps.cmpf .oge
        ((addf (broadcastTo S50x16x640 (shapeCast S50x1x640 v12 _) _) (broadcastTo S50x16x640 (shapeCast S1x16x640 v73 _) _)
          : FVec Ideal S50x16x640 .f32) (ix3 r q o)) (Scalar.ofBits .f32 0x00000000#32))
      ((addf (broadcastTo S50x16x640 (shapeCast S50x1x640 v12 _) _) (broadcastTo S50x16x640 (shapeCast S1x16x640 v73 _) _)
          : FVec Ideal S50x16x640 .f32) (ix3 r q o))
      (Scalar.ofBits (F := Ideal) .f32 0x3C23D70A#32 * (addf (broadcastTo S50x16x640 (shapeCast S50x1x640 v12 _) _) (broadcastTo S50x16x640 (shapeCast S1x16x640 v73 _) _)
          : FVec Ideal S50x16x640 .f32) (ix3 r q o)) = _
  rw [hJ]
  rfl

/-- The other four chunk payloads are the same operations on the same two operands. -/
theorem pay6_eq (v12 : FVec Ideal S50x640 .f32) (v : Vec Ideal S16x640 .f32) : k0_pay6 v12 v = k0_pay2 v12 v := rfl
theorem pay7_eq (v12 : FVec Ideal S50x640 .f32) (v : Vec Ideal S16x640 .f32) : k0_pay7 v12 v = k0_pay2 v12 v := rfl
theorem pay1_eq (v12 : FVec Ideal S50x640 .f32) (v : Vec Ideal S16x640 .f32) :
    k0_pay1 (k0_pay8 v12 v) (k0_pay9 v12 v) (k0_pay10 v12 v) = k0_pay2 v12 v := rfl
theorem pay5_eq (v0 : Vec Ideal S1x50x1x512 .bf16) (v4 : Vec Ideal S512x640 .bf16) (v8 : Vec Ideal S640 .f32) (v : Vec Ideal S16x640 .f32) :
    k0_pay5 v0 v4 v8 v = k0_pay2 (k0_pay3 v0 v4 v8) v := rfl

end Cert.KernelIdeal.Pay

end
-- ==== Proof.KernelBlock.lean ====
/-
  What one grid step leaves in its output block, as one function of the step's four input blocks.

  The step writes its (1, 50, 80, 640) output block in five pieces, one per chunk of sixteen label positions
  (rows 0–15, 16–31, … of the third axis). Piece k holds, at (·, r, q, o), the leaky rectifier of the TN
  projection at (r, o) plus the PN projection at (16k + q, o), the latter read back from the scratch buffer
  that the step filled with the whole (80, 640) PN projection just before. The two halves of the weight
  matrix are the rows 0–511 and 512–1023 of the one weight block. So every piece is the restriction, to its
  rectangle, of ONE function of the block index (`blockG`): the specification's entry with the rows of the
  TN block, the PN slab, the weight block and the bias. The five rectangles tile the block, hence the block
  the step leaves IS that function.
-/
import proofs.«107195_j74981539053948_2_alg».proof.Proof.Gen.KernelIdeal.Frame
import proofs.«107195_j74981539053948_2_alg».proof.Proof.KernelPay
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.ValueIdx
open Idealize.ShloMosaic.TcCoe Idealize.ShloMosaic.Tactic Idealize.SL.Sem

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output block as a function of the four input blocks: at (·, r, u, o) the specification's entry over row r
    of the TN block, row u of the PN slab, column o of each half of the weight block, and bias[o]. -/
def blockG (x0 : Vec Ideal S1x50x1x512 .bf16) (x1 : Vec Ideal S1x1x80x512 .bf16) (x2 : Vec Ideal S1024x640 .bf16)
    (x3 : Vec Ideal S640 .f32) : S1x50x80x640.Idx → EReal := fun y =>
  Joint.entry (fun h => x0 (ix4 (0 : Fin 1) (y 1) (0 : Fin 1) h)) (fun h => x1 (ix4 (0 : Fin 1) (0 : Fin 1) (y 2) h))
    (fun h => x2 (ix2 (Joint.top h) (y 3))) (fun h => x2 (ix2 (Joint.bot h) (y 3))) (x3 (ix1 (y 3)))

/-- The upper half of the weight block, loaded as a (512, 640) rectangle at row 0, reads row h at row h. -/
theorem ld_top (x2 : Vec Ideal S1024x640 .bf16) (inb : ∀ a, (![0, 0] : Fin 2 → Nat) a + S512x640.size a ≤ S1024x640.size a)
    (h : Fin 512) (o : Fin 640) :
    View.ld x2 (Rect.unit (s := S1024x640) ![0, 0] S512x640.size inb) (ix2 h o) = x2 (ix2 (Joint.top h) o) :=
  congrArg x2 (funext fun a => Fin.ext (by
    match a with
    | ⟨0, _⟩ => show 0 + 1 * h.val = h.val; omega
    | ⟨1, _⟩ => show 0 + 1 * o.val = o.val; omega))

/-- The lower half, loaded as a (512, 640) rectangle at row 512, reads row h at row 512 + h. -/
theorem ld_bot (x2 : Vec Ideal S1024x640 .bf16) (inb : ∀ a, (![512, 0] : Fin 2 → Nat) a + S512x640.size a ≤ S1024x640.size a)
    (h : Fin 512) (o : Fin 640) :
    View.ld x2 (Rect.unit (s := S1024x640) ![512, 0] S512x640.size inb) (ix2 h o) = x2 (ix2 (Joint.bot h) o) :=
  congrArg x2 (funext fun a => Fin.ext (by
    match a with
    | ⟨0, _⟩ => show 512 + 1 * h.val = 512 + h.val; omega
    | ⟨1, _⟩ => show 0 + 1 * o.val = o.val; omega))

/-- The piece stored at label offset `o2`: its payload at a local index is `blockG` at that index placed in the block.
    The scratch buffer holds the whole PN projection (one covering store), so the sixteen rows loaded from row `o2`
    are rows `o2 … o2 + 15` of that projection. -/
theorem piece_val (x0 : Vec Ideal S1x50x1x512 .bf16) (x1 : Vec Ideal S1x1x80x512 .bf16) (x2 : Vec Ideal S1024x640 .bf16)
    (x3 : Vec Ideal S640 .f32) (v7 : View sig .tc .vmem S80x640 .f32) (o2 : Nat)
    (inbT : ∀ a, (![0, 0] : Fin 2 → Nat) a + S512x640.size a ≤ S1024x640.size a)
    (inbB : ∀ a, (![512, 0] : Fin 2 → Nat) a + S512x640.size a ≤ S1024x640.size a)
    (inb0 : ∀ a, (![0, 0] : Fin 2 → Nat) a + S80x640.size a ≤ S80x640.size a)
    (inb7 : ∀ a, (![o2, 0] : Fin 2 → Nat) a + S16x640.size a ≤ S80x640.size a)
    (inb6 : ∀ a, (![0, 0, o2, 0] : Fin 4 → Nat) a + (![1, 50, 16, 640] : Fin 4 → Nat) a ≤ S1x50x80x640.size a)
    (x : (Rect.unit (s := S1x50x80x640) ![0, 0, o2, 0] ![1, 50, 16, 640] inb6).shape.Idx) :
    k0_pay2 (k0_pay3 x0 (View.ld x2 (Rect.unit (s := S1024x640) ![0, 0] S512x640.size inbT)) x3)
        (v7.readCov [⟨Rect.unit (s := S80x640) ![0, 0] S80x640.size inb0,
            k0_pay4 x1 (View.ld x2 (Rect.unit (s := S1024x640) ![512, 0] S512x640.size inbB))⟩]
          (Rect.unit (s := S80x640) ![o2, 0] S16x640.size inb7).toLoadRect) x
      = blockG x0 x1 x2 x3 ((Rect.unit (s := S1x50x80x640) ![0, 0, o2, 0] ![1, 50, 16, 640] inb6).emb x) := by
  obtain ⟨z, r, q, o, rfl⟩ : ∃ (z : Fin 1) (r : Fin 50) (q : Fin 16) (o : Fin 640), x = ix4 z r q o :=
    ⟨x 0, x 1, x 2, x 3, eq_ix4 x⟩
  have h16 : o2 + 16 ≤ 80 := inb7 (0 : Fin 2)
  have hq : o2 + q.val < 80 := by have := q.isLt; omega
  have hz : z.val = 0 := by omega
  refine (Pay.pay2_at _ _ z r q o).trans ?_
  -- the chunk's entry: row o2 + q of the PN projection
  have hch : (v7.readCov ([⟨Rect.unit (s := S80x640) ![0, 0] S80x640.size inb0,
        k0_pay4 x1 (View.ld x2 (Rect.unit (s := S1024x640) ![512, 0] S512x640.size inbB))⟩] : List (View.Piece (Elt Ideal) S80x640 .f32))
        (Rect.unit (s := S80x640) ![o2, 0] S16x640.size inb7).toLoadRect (ix2 q o) : EReal)
      = (∑ h : Fin 512, x1 (ix4 (0 : Fin 1) (0 : Fin 1) (⟨o2 + q.val, hq⟩ : Fin 80) h) * x2 (ix2 (Joint.bot h) o) : EReal) := by
    rw [View.readCov_eq_canon']
    show View.canon [(⟨Rect.unit (s := S80x640) ![0, 0] S80x640.size inb0, _⟩ : View.Piece (Elt Ideal) S80x640 .f32)]
      ((Rect.unit (s := S80x640) ![o2, 0] S16x640.size inb7).toLoadRect.idx (ix2 q o)) = _
    rw [View.canon_unit_zero hz2]
    have hi : (Rect.unit (s := S80x640) ![o2, 0] S16x640.size inb7).toLoadRect.idx (ix2 q o)
        = ix2 (⟨o2 + q.val, hq⟩ : Fin 80) o := funext fun a => Fin.ext (by
      match a with
      | ⟨0, _⟩ => show o2 + 1 * q.val = o2 + q.val; omega
      | ⟨1, _⟩ => show 0 + 1 * o.val = o.val; omega)
    rw [hi, Pay.pay4_at]
    exact Finset.sum_congr rfl fun h _ => congrArg (x1 _ * ·) (ld_bot x2 inbB h o)
  have htn : k0_pay3 x0 (View.ld x2 (Rect.unit (s := S1024x640) ![0, 0] S512x640.size inbT)) x3 (ix2 r o)
      = (∑ h : Fin 512, x0 (ix4 (0 : Fin 1) r (0 : Fin 1) h) * x2 (ix2 (Joint.top h) o)) + x3 (ix1 o) := by
    rw [Pay.pay3_at]
    exact congrArg (· + x3 (ix1 o)) (Finset.sum_congr rfl fun h _ => congrArg (x0 _ * ·) (ld_top x2 inbT h o))
  rw [hch, htn]
  have he : (Rect.unit (s := S1x50x80x640) ![0, 0, o2, 0] ![1, 50, 16, 640] inb6).emb (ix4 z r q o)
      = ix4 (0 : Fin 1) r (⟨o2 + q.val, hq⟩ : Fin 80) o := funext fun a => Fin.ext (by
    match a with
    | ⟨0, _⟩ => show 0 + 1 * z.val = 0; omega
    | ⟨1, _⟩ => show 0 + 1 * r.val = r.val; omega
    | ⟨2, _⟩ => show o2 + 1 * q.val = o2 + q.val; omega
    | ⟨3, _⟩ => show 0 + 1 * o.val = o.val; omega)
  rw [he]
  rfl

/-- THE BLOCK A GRID STEP LEAVES is `blockG` of its four input blocks: each of the five pieces the step stores is
    `blockG` on the piece's rectangle (`piece_val` at label offsets 64, 48, 32, 16, 0), and the rectangles tile the block. -/
theorem out_eq (c : Dev nD) (i : grid0.Coords) (arg2 : Memref sig .tc .vmem S1x50x1x512 .bf16) (harg2 : arg2.IsWhole) (arg3 : Memref sig .tc .vmem S1x1x80x512 .bf16) (harg3 : arg3.IsWhole) (arg4 : Memref sig .tc .vmem S1024x640 .bf16) (harg4 : arg4.IsWhole) (arg5 : Memref sig .tc .vmem S640 .f32) (harg5 : arg5.IsWhole) (arg6 : Memref sig .tc .vmem S1x50x80x640 .f32) (harg6 : arg6.IsWhole) (arg7 : Memref sig .tc .vmem S80x640 .f32) (harg7 : arg7.IsWhole)
    (x0 : Vec Ideal S1x50x1x512 .bf16) (x1 : Vec Ideal S1x1x80x512 .bf16) (x2 : Vec Ideal S1024x640 .bf16) (x3 : Vec Ideal S640 .f32) :
    out0_A_4 (F := Ideal) c i arg2 harg2 arg3 harg3 arg4 harg4 arg5 harg5 arg6 harg6 arg7 harg7 x0 x1 x2 x3 = blockG x0 x1 x2 x3 := by
  unfold out0_A_4
  rw [View.read_writes_eq_canon _ _ _ (cover0_A_4 c i arg2 harg2 arg3 harg3 arg4 harg4 arg5 harg5 arg6 harg6 arg7 harg7 x0 x1 x2 x3)]
  funext y
  refine View.canon_apply_of_pieces (blockG x0 x1 x2 x3) _ ?_ y (cover0_A_4 c i arg2 harg2 arg3 harg3 arg4 harg4 arg5 harg5 arg6 harg6 arg7 harg7 x0 x1 x2 x3 y)
  unfold kernelRun0_A
  dsimp only
  sl_unfold_words
  simp only [View.readAt_eq_ld, harg2.read_unread, harg3.read_unread, harg4.read_unread, harg5.read_unread,
    View.ld_unit_zero (S := S1x50x1x512) hz4, View.ld_unit_zero (S := S1x1x80x512) hz4, View.ld_unit_zero (S := S640) hz1]
  intro p hp
  rcases List.mem_cons.mp hp with rfl | hp
  · exact fun x => piece_val x0 x1 x2 x3 arg7.view 64 inb_S1024x640_S512x640_0_0 inb_S1024x640_S512x640_512_0 inb_S80x640_S80x640_0_0
      inb_S80x640_S16x640_64_0 inb_S1x50x80x640_S1x50x16x640_0_0_64_0 x
  rcases List.mem_cons.mp hp with rfl | hp
  · exact fun x => piece_val x0 x1 x2 x3 arg7.view 48 inb_S1024x640_S512x640_0_0 inb_S1024x640_S512x640_512_0 inb_S80x640_S80x640_0_0
      inb_S80x640_S16x640_48_0 inb_S1x50x80x640_S1x50x16x640_0_0_48_0 x
  rcases List.mem_cons.mp hp with rfl | hp
  · exact fun x => piece_val x0 x1 x2 x3 arg7.view 32 inb_S1024x640_S512x640_0_0 inb_S1024x640_S512x640_512_0 inb_S80x640_S80x640_0_0
      inb_S80x640_S16x640_32_0 inb_S1x50x80x640_S1x50x16x640_0_0_32_0 x
  rcases List.mem_cons.mp hp with rfl | hp
  · exact fun x => piece_val x0 x1 x2 x3 arg7.view 16 inb_S1024x640_S512x640_0_0 inb_S1024x640_S512x640_512_0 inb_S80x640_S80x640_0_0
      inb_S80x640_S16x640_16_0 inb_S1x50x80x640_S1x50x16x640_0_0_16_0 x
  rcases List.mem_cons.mp hp with rfl | hp
  · exact fun x => piece_val x0 x1 x2 x3 arg7.view 0 inb_S1024x640_S512x640_0_0 inb_S1024x640_S512x640_512_0 inb_S80x640_S80x640_0_0
      inb_S80x640_S16x640_0_0 inb_S1x50x80x640_S1x50x16x640_0_0_0_0 x
  exact absurd hp List.not_mem_nil

end Cert.KernelIdeal.Block

end
-- ==== Proof.KernelValue.lean ====
/-
  From blocks to the whole array: the kernel's result array after the run is the specification `Joint.joint`
  of the four argument arrays.

  The grid has 8 × 6 points; point (bb, tt) takes the (50, 512) block of TN at batch bb and time steps
  50·tt … 50·tt + 49, the whole (80, 512) slab of PN at batch bb, the whole weight matrix and the bias, and
  writes back the (50, 80, 640) block of the result at batch bb and those time steps. An element of a block sits,
  on each axis, at block index × block size + its coordinate inside the block. So the rows the block function
  reads through the input blocks are the rows the specification reads at the corresponding array index
  (`flushed_eq`), and every array index (b, t, u, o) lies in the block of the point (b, t / 50) (`cover`).
  The three arrays the pipeline actually stages are the arguments narrowed to sixteen-bit floats by the
  host before the call, a change of format, which at the exact reading is the identity (`V_v0` … `V_v2`).
-/
import proofs.«107195_j74981539053948_2_alg».proof.Proof.Gen.KernelIdeal.Value
import proofs.«107195_j74981539053948_2_alg».proof.Proof.KernelBlock
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification over arrays given as plain functions of their indices. -/
abbrev GA (a0 : S8x300x1x512.Idx → EReal) (a1 : S8x1x80x512.Idx → EReal) (a2 : S1024x640.Idx → EReal)
    (a3 : S640.Idx → EReal) : S8x300x80x640.Idx → Elt Ideal .f32 := Joint.joint a0 a1 a2 a3

/-- The index maps, decided over the 48 grid points: the TN window moves with the output window on the batch and
    time axes; the PN window on the batch axis only; the weight and bias windows do not move; the output window
    never moves on its last two axes; and its block indices stay below 8 and 6. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (2 : Fin 4) = 0 ∧ win0_4.index t (3 : Fin 4) = 0
    ∧ win0_4.index t (0 : Fin 4) ≤ 7 ∧ win0_4.index t (1 : Fin 4) ≤ 5 :=
  (by decide +kernel : ∀ t : Fin grid0.N, _)

/-- Every (batch, time-tile) pair is some grid point's output block. -/
theorem idx_onto : ∀ (q0 : Fin 8) (q1 : Fin 6), ∃ t : Fin cfg0.N, win0_4.index t = ![q0.val, q1.val, 0, 0] :=
  (by decide +kernel : ∀ (q0 : Fin 8) (q1 : Fin 6), ∃ t : Fin grid0.N, win0_4.index t = ![q0.val, q1.val, 0, 0])

/-- What point `t` writes back is block `t` of the specification of the arrays the region finds. -/
theorem flushed_eq (c : Dev nD) (t : Fin cfg0.N) :
    (dats m 0 c).flushed 4 t
      = ((cfg0.win 4).blk t).view.read (Elt Ideal) (GA (V m c main_v0) (V m c main_v1) (V m c main_v2) (V m c main_arg3)) := by
  rw [Value.flushed4_A, Block.out_eq]
  obtain ⟨e00, e01, e02, e03, e10, e11, e12, e13, e20, e21, e30, e42, e43, -, -⟩ := idx_facts t
  funext y
  have hy0 : (y 0).val < 1 := (y 0).isLt
  show Joint.entry (fun h => V m c main_v0 (((cfg0.win 0).blk t).view.emb (ix4 (0 : Fin 1) (y 1) (0 : Fin 1) h)))
      (fun h => V m c main_v1 (((cfg0.win 1).blk t).view.emb (ix4 (0 : Fin 1) (0 : Fin 1) (y 2) h)))
      (fun h => V m c main_v2 (((cfg0.win 2).blk t).view.emb (ix2 (Joint.top h) (y 3))))
      (fun h => V m c main_v2 (((cfg0.win 2).blk t).view.emb (ix2 (Joint.bot h) (y 3))))
      (V m c main_arg3 (((cfg0.win 3).blk t).view.emb (ix1 (y 3))))
    = Joint.entry
      (fun h => V m c main_v0 (ix4 ((((cfg0.win 4).blk t).view.emb y) 0) ((((cfg0.win 4).blk t).view.emb y) 1) (0 : Fin 1) h))
      (fun h => V m c main_v1 (ix4 ((((cfg0.win 4).blk t).view.emb y) 0) (0 : Fin 1) ((((cfg0.win 4).blk t).view.emb y) 2) h))
      (fun h => V m c main_v2 (ix2 (Joint.top h) ((((cfg0.win 4).blk t).view.emb y) 3)))
      (fun h => V m c main_v2 (ix2 (Joint.bot h) ((((cfg0.win 4).blk t).view.emb y) 3)))
      (V m c main_arg3 (ix1 ((((cfg0.win 4).blk t).view.emb y) 3)))
  have h0 : ∀ h : Fin 512, ((cfg0.win 0).blk t).view.emb (ix4 (0 : Fin 1) (y 1) (0 : Fin 1) h)
      = ix4 ((((cfg0.win 4).blk t).view.emb y) 0) ((((cfg0.win 4).blk t).view.emb y) 1) (0 : Fin 1) h := fun h => by
    funext a; apply Fin.ext
    match a with
    | ⟨0, _⟩ => show win0_0.index t (0 : Fin 4) * 1 + 1 * 0 = win0_4.index t (0 : Fin 4) * 1 + 1 * (y 0).val; omega
    | ⟨1, _⟩ => show win0_0.index t (1 : Fin 4) * 50 + 1 * (y 1).val = win0_4.index t (1 : Fin 4) * 50 + 1 * (y 1).val; omega
    | ⟨2, _⟩ => show win0_0.index t (2 : Fin 4) * 1 + 1 * 0 = 0; omega
    | ⟨3, _⟩ => show win0_0.index t (3 : Fin 4) * 512 + 1 * h.val = h.val; omega
  have h1 : ∀ h : Fin 512, ((cfg0.win 1).blk t).view.emb (ix4 (0 : Fin 1) (0 : Fin 1) (y 2) h)
      = ix4 ((((cfg0.win 4).blk t).view.emb y) 0) (0 : Fin 1) ((((cfg0.win 4).blk t).view.emb y) 2) h := fun h => by
    funext a; apply Fin.ext
    match a with
    | ⟨0, _⟩ => show win0_1.index t (0 : Fin 4) * 1 + 1 * 0 = win0_4.index t (0 : Fin 4) * 1 + 1 * (y 0).val; omega
    | ⟨1, _⟩ => show win0_1.index t (1 : Fin 4) * 1 + 1 * 0 = 0; omega
    | ⟨2, _⟩ => show win0_1.index t (2 : Fin 4) * 80 + 1 * (y 2).val = win0_4.index t (2 : Fin 4) * 80 + 1 * (y 2).val; omega
    | ⟨3, _⟩ => show win0_1.index t (3 : Fin 4) * 512 + 1 * h.val = h.val; omega
  have h2 : ∀ k : Fin 1024, ((cfg0.win 2).blk t).view.emb (ix2 k (y 3))
      = ix2 k ((((cfg0.win 4).blk t).view.emb y) 3) := fun k => by
    funext a; apply Fin.ext
    match a with
    | ⟨0, _⟩ => show win0_2.index t (0 : Fin 2) * 1024 + 1 * k.val = k.val; omega
    | ⟨1, _⟩ => show win0_2.index t (1 : Fin 2) * 640 + 1 * (y 3).val = win0_4.index t (3 : Fin 4) * 640 + 1 * (y 3).val; omega
  have h3 : ((cfg0.win 3).blk t).view.emb (ix1 (y 3)) = ix1 ((((cfg0.win 4).blk t).view.emb y) 3) := by
    funext a; apply Fin.ext
    match a with
    | ⟨0, _⟩ => show win0_3.index t (0 : Fin 1) * 640 + 1 * (y 3).val = win0_4.index t (3 : Fin 4) * 640 + 1 * (y 3).val; omega
  simp only [h0, h1, h2, h3]
  rfl

/-- An index of the result array is in point `t`'s block iff each coordinate is in the block's range on its axis. -/
theorem mem_blk (t : Fin cfg0.N) (i : S8x300x80x640.Idx) :
    i ∈ ((cfg0.win 4).blk t).view.set ↔ ∀ a : Fin 4, win0_4.index t a * S1x50x80x640.size a ≤ (i a).val
      ∧ (i a).val < win0_4.index t a * S1x50x80x640.size a + S1x50x80x640.size a := by
  show i ∈ ((View.whole main_v3).slice (win0_4.rect t)).set ↔ _
  rw [View.set_slice_whole, Rect.mem_set_unit]
  exact Iff.rfl

/-- Every index of the result array is in some point's block: (b, t, u, o) is in the block of (b, t / 50). -/
theorem cover (i : S8x300x80x640.Idx) :
    ∃ t : Fin cfg0.N, (cfg0.win 4).flush t = true ∧ i ∈ ((cfg0.win 4).blk t).view.set := by
  have hi0 : (i 0).val < 8 := (i 0).isLt
  have hi1 : (i 1).val < 300 := (i 1).isLt
  have hi2 : (i 2).val < 80 := (i 2).isLt
  have hi3 : (i 3).val < 640 := (i 3).isLt
  obtain ⟨t, ht⟩ := idx_onto ⟨(i 0).val, hi0⟩ ⟨(i 1).val / 50, by omega⟩
  have q0 : win0_4.index t (0 : Fin 4) = (i 0).val := congrFun ht 0
  have q1 : win0_4.index t (1 : Fin 4) = (i 1).val / 50 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 50 ≤ (i 1).val ∧ (i 1).val < win0_4.index t (1 : Fin 4) * 50 + 50; omega
  | ⟨2, _⟩ => show win0_4.index t (2 : Fin 4) * 80 ≤ (i 2).val ∧ (i 2).val < win0_4.index t (2 : Fin 4) * 80 + 80; omega
  | ⟨3, _⟩ => show win0_4.index t (3 : Fin 4) * 640 ≤ (i 3).val ∧ (i 3).val < win0_4.index t (3 : Fin 4) * 640 + 640; omega

/-- The staged copy of TN is TN: the host's change of float format is the identity at the exact reading. -/
theorem V_v0 (c : Dev nD) : (V m c main_v0 : S8x300x1x512.Idx → EReal) = m ((c : Thread nD τ).loc main_arg0) := by
  dsimp only [Gen.V, Gen.hostOps0]; after_results; rfl
/-- The staged copy of PN is PN. -/
theorem V_v1 (c : Dev nD) : (V m c main_v1 : S8x1x80x512.Idx → EReal) = m ((c : Thread nD τ).loc main_arg1) := by
  dsimp only [Gen.V, Gen.hostOps0]; after_results; rfl
/-- The staged copy of the weight matrix is the weight matrix. -/
theorem V_v2 (c : Dev nD) : (V m c main_v2 : S1024x640.Idx → EReal) = m ((c : Thread nD τ).loc main_arg2) := by
  dsimp only [Gen.V, Gen.hostOps0]; after_results; rfl

/-- The result array after the run is the specification of the four argument arrays. -/
theorem final (c : Dev nD) : (dats m 0 c).arrAt 4 cfg0.N
    = GA (m ((c : Thread nD τ).loc main_arg0)) (m ((c : Thread nD τ).loc main_arg1))
        (m ((c : Thread nD τ).loc main_arg2)) (m ((c : Thread nD τ).loc main_arg3)) := by
  rw [(dats m 0 c).arrAt_eq_of_cover 4 (GA (V m c main_v0) (V m c main_v1) (V m c main_v2) (V m c main_arg3))
    (fun t _ => flushed_eq m c t) cover, V_v0, V_v1, V_v2, V_main_arg3]

/-- The kernel's run: every weakly fair execution terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v3)
        = GA (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.RefTerm.lean ====
/-
  The reference's result as one term of its four arguments, at any float instance: the two projections
  (each a contraction of the last axis with one half of the weight matrix), broadcast against each other
  over the time and label axes and added, then the bias broadcast along the channel axis and added, then the
  leaky rectifier spelt as a comparison with zero, a product with the slope and a select.
-/
import proofs.«107195_j74981539053948_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The value before the rectifier: (TN·Wt + PN·Wp) + bias, every summand broadcast to the result's shape. -/
def preact (tn : FVec F S8x300x1x512 .f32) (pn : FVec F S8x1x80x512 .f32) (w : FVec F S1024x640 .f32) (b : FVec F S640 .f32) :
    FVec F S8x300x80x640 .f32 :=
  addf
    (addf
      (broadcastInDim S8x300x80x640 ![0, 1, 2, 3] bcast_S8x300x1x640_S8x300x80x640_0_1_2_3
        (Host.dotGeneral dot_S8x300x1x512_S512x640_S8x300x1x640_3_0_012_1_n_n none tn
          (extractStridedSlice S512x640 ![0, 0] w slices_S1024x640_S512x640_0_0)))
      (broadcastInDim S8x300x80x640 ![0, 1, 2, 3] bcast_S8x1x80x640_S8x300x80x640_0_1_2_3
        (Host.dotGeneral dot_S8x1x80x512_S512x640_S8x1x80x640_3_0_012_1_n_n none pn
          (extractStridedSlice S512x640 ![512, 0] w slices_S1024x640_S512x640_512_0))))
    (broadcastInDim S8x300x80x640 ![0, 1, 2, 3] bcast_S1x1x1x640_S8x300x80x640_0_1_2_3
      (broadcastInDim S1x1x1x640 ![3] bcast_S640_S1x1x1x640_3 b))

/-- The rectifier applied to it. -/
def refOut (tn : FVec F S8x300x1x512 .f32) (pn : FVec F S8x1x80x512 .f32) (w : FVec F S1024x640 .f32) (b : FVec F S640 .f32) :
    FVec F S8x300x80x640 .f32 :=
  select
    (cmpf .oge (preact tn pn w b) (broadcastInDim S8x300x80x640 ![] bcast_S_S8x300x80x640 (constant S_ .f32 0x00000000#32)))
    (preact tn pn w b)
    (mulf (broadcastInDim S8x300x80x640 ![] bcast_S_S8x300x80x640 (id (constant S_ .f32 0x3C23D70A#32))) (preact tn pn w b))

end Cert.ReferenceIdeal.RefTerm

end
-- ==== Proof.RefRun.lean ====
/-
  The reference program as a straight line of eighteen host operations, and its run.

  The program's entry function makes one call (the leaky rectifier), which itself makes one call (an
  elementwise select); a call executes the callee's operations on the caller's buffers, so the whole program
  is the eleven operations of the entry function followed by the six of the rectifier and the one of the
  select. Run from any memory, every weakly fair execution terminates with each buffer at the fold of those
  operations over the launch contents; read at the result buffer that fold is `RefTerm.refOut` of the four
  arguments, and no operation writes an argument.
-/
import proofs.«107195_j74981539053948_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The eighteen operations, in program order, the two calls unfolded. -/
abbrev ops : List (HloOp τ sig (Elt F)) :=
  [ unary main_arg2 main_v0 ((extractStridedSlice S512x640 ![0, 0] · slices_S1024x640_S512x640_0_0) : (⟨S1024x640, .f32⟩ : BufTy).Contents (Elt F) → (⟨S512x640, .f32⟩ : BufTy).Contents (Elt F)),
    unary main_arg2 main_v1 ((extractStridedSlice S512x640 ![512, 0] · slices_S1024x640_S512x640_512_0) : (⟨S1024x640, .f32⟩ : BufTy).Contents (Elt F) → (⟨S512x640, .f32⟩ : BufTy).Contents (Elt F)),
    binary main_arg0 main_v0 main_v2 ((fun l r => Host.dotGeneral dot_S8x300x1x512_S512x640_S8x300x1x640_3_0_012_1_n_n none l r) : (⟨S8x300x1x512, .f32⟩ : BufTy).Contents (Elt F) → (⟨S512x640, .f32⟩ : BufTy).Contents (Elt F) → (⟨S8x300x1x640, .f32⟩ : BufTy).Contents (Elt F)),
    binary main_arg1 main_v1 main_v3 ((fun l r => Host.dotGeneral dot_S8x1x80x512_S512x640_S8x1x80x640_3_0_012_1_n_n none l r) : (⟨S8x1x80x512, .f32⟩ : BufTy).Contents (Elt F) → (⟨S512x640, .f32⟩ : BufTy).Contents (Elt F) → (⟨S8x1x80x640, .f32⟩ : BufTy).Contents (Elt F)),
    unary main_v2 main_v4 (broadcastInDim S8x300x80x640 ![0, 1, 2, 3] bcast_S8x300x1x640_S8x300x80x640_0_1_2_3 : (⟨S8x300x1x640, .f32⟩ : BufTy).Contents (Elt F) → (⟨S8x300x80x640, .f32⟩ : BufTy).Contents (Elt F)),
    unary main_v3 main_v5 (broadcastInDim S8x300x80x640 ![0, 1, 2, 3] bcast_S8x1x80x640_S8x300x80x640_0_1_2_3 : (⟨S8x1x80x640, .f32⟩ : BufTy).Contents (Elt F) → (⟨S8x300x80x640, .f32⟩ : BufTy).Contents (Elt F)),
    binary main_v4 main_v5 main_v6 (addf : (⟨S8x300x80x640, .f32⟩ : BufTy).Contents (Elt F) → (⟨S8x300x80x640, .f32⟩ : BufTy).Contents (Elt F) → (⟨S8x300x80x640, .f32⟩ : BufTy).Contents (Elt F)),
    unary main_arg3 main_v7 (broadcastInDim S1x1x1x640 ![3] bcast_S640_S1x1x1x640_3 : (⟨S640, .f32⟩ : BufTy).Contents (Elt F) → (⟨S1x1x1x640, .f32⟩ : BufTy).Contents (Elt F)),
    unary main_v7 main_v8 (broadcastInDim S8x300x80x640 ![0, 1, 2, 3] bcast_S1x1x1x640_S8x300x80x640_0_1_2_3 : (⟨S1x1x1x640, .f32⟩ : BufTy).Contents (Elt F) → (⟨S8x300x80x640, .f32⟩ : BufTy).Contents (Elt F)),
    binary main_v6 main_v8 main_v9 (addf : (⟨S8x300x80x640, .f32⟩ : BufTy).Contents (Elt F) → (⟨S8x300x80x640, .f32⟩ : BufTy).Contents (Elt F) → (⟨S8x300x80x640, .f32⟩ : BufTy).Contents (Elt F)),
    nullary main_cst (constant S_ .f32 0x3C23D70A#32),
    TRef.nullary main_call0.cst (constant S_ .f32 0x00000000#32),
    TRef.unary main_call0.cst main_call0.v0 (broadcastInDim S8x300x80x640 ![] bcast_S_S8x300x80x640),
    TRef.binary (.of main_v9) main_call0.v0 main_call0.v1 (cmpf .oge),
    TRef.unary (.of main_cst) main_call0.v2 id,
    TRef.unary main_call0.v2 main_call0.v3 (broadcastInDim S8x300x80x640 ![] bcast_S_S8x300x80x640),
    TRef.binary main_call0.v3 (.of main_v9) main_call0.v4 mulf,
    TRef.ternary main_call0.v1 (.of main_v9) main_call0.v4 main_call0.call0.v0 select ]

set_option maxRecDepth 2048 in
/-- The entry function is that straight line: the two callees' definitions unfolded at their calls, the
    sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., unary_bufs_sub .., unary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- From any memory with zero counters every weakly fair execution of the reference terminates, with the
    result buffer at `RefTerm.refOut` of the four arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = RefTerm.refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (by after_results <;> rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.RefRun

end
-- ==== Proof.RefValue.lean ====
/-
  The reference's term read at one index, at the exact (extended-real) reading, is the specification.

  At (b, t, u, o): the first projection is a contraction of TN's last axis with the upper half of the weight
  matrix, so its (b, t, 0, o) entry is the sum over the 512 hidden units h of TN[b,t,0,h] · W[h,o]; the second
  likewise with PN and the lower half, W[512+h,o]. Broadcasting the first over the label axis and the second
  over the time axis reads those entries at every (t, u); the bias, laid along the channel axis, reads bias[o].
  Their sum is grouped (first + second) + bias, and the specification groups (first + bias) + second:
  one regrouping of a sum of three extended reals. The rectifier is the same comparison, product and select.
-/
import proofs.«107195_j74981539053948_2_alg».proof.Proof.RefTerm
import proofs.«107195_j74981539053948_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- TN contracted with a (512, 640) matrix along its last axis, at (b, t, ·, o): the sum over the hidden units. -/
theorem dot_tn (x : FVec Ideal S8x300x1x512 .f32) (wt : FVec Ideal S512x640 .f32) (b : Fin 8) (t : Fin 300) (z : Fin 1) (o : Fin 640) :
    Host.dotGeneral dot_S8x300x1x512_S512x640_S8x300x1x640_3_0_012_1_n_n none x wt (ix4 b t z o) = ∑ h : Fin 512, x (ix4 b t z h) * wt (ix2 h o) := by
  show FloatOps.dotGeneral _ none _ x wt (ix4 b t z o) = _
  rw [Ideal.dotGeneral_apply, ← Equiv.sum_comp (contrEquiv1 dot_S8x300x1x512_S512x640_S8x300x1x640_3_0_012_1_n_n 512 rfl rfl).symm]
  refine Finset.sum_congr rfl fun h _ => ?_
  have ch := contrEquiv1_symm_val dot_S8x300x1x512_S512x640_S8x300x1x640_3_0_012_1_n_n 512 rfl rfl h
  have hl : (dot_S8x300x1x512_S512x640_S8x300x1x640_3_0_012_1_n_n).lhsIdx (ix4 b t z o) ((contrEquiv1 dot_S8x300x1x512_S512x640_S8x300x1x640_3_0_012_1_n_n 512 rfl rfl).symm h) = ix4 b t z h := by
    funext ax; apply Fin.ext
    match ax with
    | ⟨0, _⟩ => rfl
    | ⟨1, _⟩ => rfl
    | ⟨2, _⟩ => rfl
    | ⟨3, _⟩ => exact (DotDims.lhsIdx_val_of_single _ rfl _ _).trans ch
  have hr : (dot_S8x300x1x512_S512x640_S8x300x1x640_3_0_012_1_n_n).rhsIdx (ix4 b t z o) ((contrEquiv1 dot_S8x300x1x512_S512x640_S8x300x1x640_3_0_012_1_n_n 512 rfl rfl).symm h) = ix2 h o := by
    funext ax; apply Fin.ext
    match ax with
    | ⟨0, _⟩ => exact (DotDims.rhsIdx_val_of_single _ rfl _ _).trans ch
    | ⟨1, _⟩ => rfl
  rw [hl, hr]

/-- PN contracted with a (512, 640) matrix along its last axis, at (b, ·, u, o): the sum over the hidden units. -/
theorem dot_pn (x : FVec Ideal S8x1x80x512 .f32) (wt : FVec Ideal S512x640 .f32) (b : Fin 8) (z : Fin 1) (u : Fin 80) (o : Fin 640) :
    Host.dotGeneral dot_S8x1x80x512_S512x640_S8x1x80x640_3_0_012_1_n_n none x wt (ix4 b z u o) = ∑ h : Fin 512, x (ix4 b z u h) * wt (ix2 h o) := by
  show FloatOps.dotGeneral _ none _ x wt (ix4 b z u o) = _
  rw [Ideal.dotGeneral_apply, ← Equiv.sum_comp (contrEquiv1 dot_S8x1x80x512_S512x640_S8x1x80x640_3_0_012_1_n_n 512 rfl rfl).symm]
  refine Finset.sum_congr rfl fun h _ => ?_
  have ch := contrEquiv1_symm_val dot_S8x1x80x512_S512x640_S8x1x80x640_3_0_012_1_n_n 512 rfl rfl h
  have hl : (dot_S8x1x80x512_S512x640_S8x1x80x640_3_0_012_1_n_n).lhsIdx (ix4 b z u o) ((contrEquiv1 dot_S8x1x80x512_S512x640_S8x1x80x640_3_0_012_1_n_n 512 rfl rfl).symm h) = ix4 b z u h := by
    funext ax; apply Fin.ext
    match ax with
    | ⟨0, _⟩ => rfl
    | ⟨1, _⟩ => rfl
    | ⟨2, _⟩ => rfl
    | ⟨3, _⟩ => exact (DotDims.lhsIdx_val_of_single _ rfl _ _).trans ch
  have hr : (dot_S8x1x80x512_S512x640_S8x1x80x640_3_0_012_1_n_n).rhsIdx (ix4 b z u o) ((contrEquiv1 dot_S8x1x80x512_S512x640_S8x1x80x640_3_0_012_1_n_n 512 rfl rfl).symm h) = ix2 h o := by
    funext ax; apply Fin.ext
    match ax with
    | ⟨0, _⟩ => exact (DotDims.rhsIdx_val_of_single _ rfl _ _).trans ch
    | ⟨1, _⟩ => rfl
  rw [hl, hr]

/-- The upper half of the weight matrix reads row h at row h. -/
theorem slice_top (w : FVec Ideal S1024x640 .f32) (hs : S1024x640.Slices ![0, 0] S512x640) (h : Fin 512) (o : Fin 640) :
    extractStridedSlice S512x640 ![0, 0] w hs (ix2 h o) = w (ix2 (Joint.top h) o) :=
  extractStridedSlice_apply ![0, 0] w hs (ix2 h o) (ix2 (Joint.top h) o) fun a => by
    match a with
    | ⟨0, _⟩ => show h.val = 0 + h.val; omega
    | ⟨1, _⟩ => show o.val = 0 + o.val; omega

/-- The lower half of the weight matrix reads row h at row 512 + h. -/
theorem slice_bot (w : FVec Ideal S1024x640 .f32) (hs : S1024x640.Slices ![512, 0] S512x640) (h : Fin 512) (o : Fin 640) :
    extractStridedSlice S512x640 ![512, 0] w hs (ix2 h o) = w (ix2 (Joint.bot h) o) :=
  extractStridedSlice_apply ![512, 0] w hs (ix2 h o) (ix2 (Joint.bot h) o) fun a => by
    match a with
    | ⟨0, _⟩ => show 512 + h.val = 512 + h.val; rfl
    | ⟨1, _⟩ => show o.val = 0 + o.val; omega

/-- A (8, 300, 1, 640) array broadcast over the label axis reads its (b, t, 0, o) entry. -/
theorem bc_time (x : FVec Ideal S8x300x1x640 .f32) (hb : S8x300x1x640.BroadcastsInDim S8x300x80x640 (![0, 1, 2, 3] : Fin 4 → Fin S8x300x80x640.rank))
    (b : Fin 8) (t : Fin 300) (u : Fin 80) (o : Fin 640) :
    broadcastInDim S8x300x80x640 ![0, 1, 2, 3] hb x (ix4 b t u o) = x (ix4 b t (0 : Fin 1) o) :=
  broadcastInDim_apply _ hb x (ix4 b t u o) (ix4 b t (0 : Fin 1) o) fun a => by
    match a with
    | ⟨0, _⟩ => rfl
    | ⟨1, _⟩ => rfl
    | ⟨2, _⟩ => rfl
    | ⟨3, _⟩ => rfl

/-- A (8, 1, 80, 640) array broadcast over the time axis reads its (b, 0, u, o) entry. -/
theorem bc_label (x : FVec Ideal S8x1x80x640 .f32) (hb : S8x1x80x640.BroadcastsInDim S8x300x80x640 (![0, 1, 2, 3] : Fin 4 → Fin S8x300x80x640.rank))
    (b : Fin 8) (t : Fin 300) (u : Fin 80) (o : Fin 640) :
    broadcastInDim S8x300x80x640 ![0, 1, 2, 3] hb x (ix4 b t u o) = x (ix4 b (0 : Fin 1) u o) :=
  broadcastInDim_apply _ hb x (ix4 b t u o) (ix4 b (0 : Fin 1) u o) fun a => by
    match a with
    | ⟨0, _⟩ => rfl
    | ⟨1, _⟩ => rfl
    | ⟨2, _⟩ => rfl
    | ⟨3, _⟩ => rfl

/-- The bias laid along the channel axis and broadcast over the other three reads bias[o]. -/
theorem bc_bias (bias : FVec Ideal S640 .f32) (h1 : S640.BroadcastsInDim S1x1x1x640 (![3] : Fin 1 → Fin S1x1x1x640.rank))
    (h2 : S1x1x1x640.BroadcastsInDim S8x300x80x640 (![0, 1, 2, 3] : Fin 4 → Fin S8x300x80x640.rank))
    (b : Fin 8) (t : Fin 300) (u : Fin 80) (o : Fin 640) :
    broadcastInDim S8x300x80x640 ![0, 1, 2, 3] h2 (broadcastInDim S1x1x1x640 ![3] h1 bias) (ix4 b t u o) = bias (ix1 o) := by
  refine (broadcastInDim_apply _ h2 _ (ix4 b t u o) (ix4 (0 : Fin 1) (0 : Fin 1) (0 : Fin 1) o) fun a => ?_).trans
    (broadcastInDim_apply _ h1 bias (ix4 (0 : Fin 1) (0 : Fin 1) (0 : Fin 1) o) (ix1 o) fun a => ?_)
  · match a with
    | ⟨0, _⟩ => rfl
    | ⟨1, _⟩ => rfl
    | ⟨2, _⟩ => rfl
    | ⟨3, _⟩ => rfl
  · match a with
    | ⟨0, _⟩ => rfl

/-- The value before the rectifier, at (b, t, u, o). -/
theorem preact_at (tn : FVec Ideal S8x300x1x512 .f32) (pn : FVec Ideal S8x1x80x512 .f32) (w : FVec Ideal S1024x640 .f32)
    (bias : FVec Ideal S640 .f32) (b : Fin 8) (t : Fin 300) (u : Fin 80) (o : Fin 640) :
    RefTerm.preact tn pn w bias (ix4 b t u o)
      = (∑ h : Fin 512, tn (ix4 b t (0 : Fin 1) h) * w (ix2 (Joint.top h) o)
          + ∑ h : Fin 512, pn (ix4 b (0 : Fin 1) u h) * w (ix2 (Joint.bot h) o)) + bias (ix1 o) := by
  unfold RefTerm.preact
  show (broadcastInDim S8x300x80x640 ![0, 1, 2, 3] _ (Host.dotGeneral dot_S8x300x1x512_S512x640_S8x300x1x640_3_0_012_1_n_n none tn (extractStridedSlice S512x640 ![0, 0] w _)) (ix4 b t u o)
      + broadcastInDim S8x300x80x640 ![0, 1, 2, 3] _ (Host.dotGeneral dot_S8x1x80x512_S512x640_S8x1x80x640_3_0_012_1_n_n none pn (extractStridedSlice S512x640 ![512, 0] w _)) (ix4 b t u o))
      + broadcastInDim S8x300x80x640 ![0, 1, 2, 3] _ (broadcastInDim S1x1x1x640 ![3] _ bias) (ix4 b t u o) = _
  rw [bc_time, bc_label, bc_bias, dot_tn, dot_pn]
  refine congrArg (· + bias (ix1 o)) (congrArg₂ (· + ·) (Finset.sum_congr rfl fun h _ => ?_) (Finset.sum_congr rfl fun h _ => ?_))
  · rw [slice_top]
  · rw [slice_bot]

/-- The reference's result at (b, t, u, o) is the leaky rectifier of that value. -/
theorem refOut_at (tn : FVec Ideal S8x300x1x512 .f32) (pn : FVec Ideal S8x1x80x512 .f32) (w : FVec Ideal S1024x640 .f32)
    (bias : FVec Ideal S640 .f32) (i : S8x300x80x640.Idx) :
    RefTerm.refOut tn pn w bias i = Joint.leaky (RefTerm.preact tn pn w bias i) := rfl

/-- The reference's result is the specification, entry by entry. -/
theorem refOut_eq (tn : FVec Ideal S8x300x1x512 .f32) (pn : FVec Ideal S8x1x80x512 .f32) (w : FVec Ideal S1024x640 .f32)
    (bias : FVec Ideal S640 .f32) : RefTerm.refOut tn pn w bias = Joint.joint tn pn w bias := by
  funext i
  obtain ⟨b, t, u, o, rfl⟩ : ∃ (b : Fin 8) (t : Fin 300) (u : Fin 80) (o : Fin 640), i = ix4 b t u o :=
    ⟨i 0, i 1, i 2, i 3, eq_ix4 i⟩
  rw [refOut_at, preact_at]
  exact Joint.entry_regroup _ _ _ _ _

end Cert.ReferenceIdeal.RefValue

end
-- ==== Proof.lean ====
/-
  The certificate of the joint-network kernel against its reference.

  Both programs compute, for a batch b, a time step t, a label position u and an output channel o,
      leaky ( ∑ₕ TN[b,t,0,h] · W[h,o]  +  ∑ₕ PN[b,0,u,h] · W[512+h,o]  +  bias[o] ),
  leaky x being x for x ≥ 0 and c · x otherwise, with the same single-precision word for c on both sides.
  The kernel narrows TN, PN and W to sixteen-bit floats before its two matrix products (at the exact reading a
  change of format is the identity), adds the bias to the first product before adding the second, and writes
  each (50, 80, 640) block of the result in five chunks of sixteen label positions through a scratch copy of
  the second product; the reference adds the two products first and the bias last. Over the extended reals the two
  groupings of the three summands are equal with no finiteness assumption, so the precondition is never opened.

    frame (three programs)   the two kernels' frames are the generated ones; the reference's is its run
                             (Proof/RefRun.lean: the program as eighteen host operations) with the result dropped.
    preserves                the idealization rewrote nothing: `True`.
    algebraic                the kernel's result array is `Joint.joint` of the arguments (Proof/KernelValue.lean, over
                             the block function of Proof/KernelBlock.lean and the payload readings of
                             Proof/KernelPay.lean); the reference's result is the same function
                             (Proof/RefValue.lean); the arguments agree.
-/
import proofs.«107195_j74981539053948_2_alg».proof.Defs
import proofs.«107195_j74981539053948_2_alg».proof.Proof.Gen.Kernel
import proofs.«107195_j74981539053948_2_alg».proof.Proof.Gen.Kernel.Skeleton
import proofs.«107195_j74981539053948_2_alg».proof.Proof.Gen.Kernel.Launch
import proofs.«107195_j74981539053948_2_alg».proof.Proof.Gen.Kernel.Points
import proofs.«107195_j74981539053948_2_alg».proof.Proof.Gen.Kernel.Frame
import proofs.«107195_j74981539053948_2_alg».proof.Proof.Gen.KernelIdeal
import proofs.«107195_j74981539053948_2_alg».proof.Proof.Gen.KernelIdeal.Skeleton
import proofs.«107195_j74981539053948_2_alg».proof.Proof.Gen.KernelIdeal.Launch
import proofs.«107195_j74981539053948_2_alg».proof.Proof.Gen.KernelIdeal.Points
import proofs.«107195_j74981539053948_2_alg».proof.Proof.Gen.KernelIdeal.Frame
import proofs.«107195_j74981539053948_2_alg».proof.Proof.Gen.KernelIdeal.Value
import proofs.«107195_j74981539053948_2_alg».proof.Proof.Gen.ReferenceIdeal
import proofs.«107195_j74981539053948_2_alg».proof.Proof.Gen.Pre_finite_inputs
import proofs.«107195_j74981539053948_2_alg».proof.Proof.KernelValue
import proofs.«107195_j74981539053948_2_alg».proof.Proof.RefRun
import proofs.«107195_j74981539053948_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates from any memory and writes no argument: its run, the result's clause dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the four arguments both programs end with the result array at the specification
    of those arguments: the kernel by its run read block by block, the reference by its run read entry by entry. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
